-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : FVec F S4x2048x1024 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Kernel.lean ====
abbrev S4x2048x1024 : Shape := ⟨3, ![4, 2048, 1024]⟩
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1024_S4x2048x1024 : S8192x1024.ShapeCasts S4x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .i32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)

variable [Facts₀]

class Facts : Prop extends Facts₀ where

variable [Facts]
-- ==== Proof.Spec.lean ====
/-
  Layer normalisation of the rows of a [4, 2048, 1024] array with a per-element scale and shift, as ONE function of
  the three argument arrays over the extended reals.

  For the row (b, s) of `x`:  mean = (∑ₖ x[b,s,k]) / 1024,  var = (∑ₖ (x[b,s,k] − mean)²) / 1024, and the result at
  (b, s, d) is  (x[b,s,d] − mean) · rsqrt(var + ε) · γ[b,s,d] + β[b,s,d].  The divisor 1024 and ε are kept as the
  binary32 words both programs print (0x44800000 and 0x36A7C5AC): the same word on both sides is never evaluated.
  Division and the reciprocal square root are the extended reals' (`Ideal.div`, `Ideal.rsqrt`).
-/
import Idealize.ShloMosaic.PureOps.Ideal
import Idealize.ShloMosaic.Lib.ValueIdx

noncomputable section

namespace Cert.LayerNorm

open Idealize.ShloMosaic Idealize.ShloMosaic.ValueIdx
open scoped BigOperators

/-- The arrays' shape. -/
abbrev S3 : Shape := ⟨3, ![4, 2048, 1024]⟩

/-- The row length as both programs write it: the binary32 word of 1024. -/
def rowLen : EReal := Ideal.ofBits .f32 0x44800000#32
/-- The variance's guard ε as both programs write it. -/
def eps : EReal := Ideal.ofBits .f32 0x36A7C5AC#32

/-- The mean of row (b, s). -/
def rowMean (x : S3.Idx → EReal) (b : Fin 4) (s : Fin 2048) : EReal :=
  Ideal.div (∑ k : Fin 1024, x (ix3 b s k)) rowLen

/-- The (population) variance of row (b, s): the mean of the squared deviations from the row's mean. -/
def rowVar (x : S3.Idx → EReal) (b : Fin 4) (s : Fin 2048) : EReal :=
  Ideal.div (∑ k : Fin 1024, (x (ix3 b s k) - rowMean x b s) * (x (ix3 b s k) - rowMean x b s)) rowLen

/-- The normalised, scaled and shifted element at (b, s, d). -/
def at3 (x g be : S3.Idx → EReal) (b : Fin 4) (s : Fin 2048) (d : Fin 1024) : EReal :=
  (x (ix3 b s d) - rowMean x b s) * Ideal.rsqrt (rowVar x b s + eps) * g (ix3 b s d) + be (ix3 b s d)

/-- THE RESULT ARRAY as a function of the three argument arrays. -/
def G (x g be : S3.Idx → EReal) : S3.Idx → EReal := fun i => at3 x g be (i 0) (i 1) (i 2)

/-- At an index given by its coordinates. -/
theorem G_ix3 (x g be : S3.Idx → EReal) (b : Fin 4) (s : Fin 2048) (d : Fin 1024) :
    G x g be (ix3 b s d) = at3 x g be b s d := rfl

end Cert.LayerNorm

end
-- ==== Proof.BlockNorm.lean ====
/-
  Layer normalisation of ONE ROW, and the kernel body's vector arithmetic read at an index.

  A row is given by its three column functions (the row of the input, of the scale and of the shift); `rowLN` is the
  normalised, scaled and shifted row. The specification's element at (b, s, d) is `rowLN` of the rows (b, s, ·) at `d`.
  The body computes, on a block of 1024 rows, `c · (rsqrt(var + ε) · γ) + β` with `c = x − mean`: the keepdims
  column [1024] → [1024, 1] reads its row, the column's broadcast back to [1024, 1024] reads the row's value at every
  lane, a lane sum is the sum over the row, and the product re-associates (multiplication of extended reals is
  associative), so at (p, q) the body is `rowLN` of the block's row `p` at `q`.
-/
import Idealize.ShloMosaic.PureOps.Ideal.Laws
import Idealize.ShloMosaic.Lib.ValueIdx
import Idealize.ShloMosaic.Lib.Pipeline.Value
import proofs.«145067_j37855841747141_2_alg».proof.Proof.Spec

noncomputable section

namespace Cert.LayerNorm

open Idealize.ShloMosaic Idealize.ShloMosaic.ValueIdx
open scoped BigOperators

/-- Layer normalisation of one row with its scale and shift rows, at column `d`. -/
def rowLN (xr gr br : Fin 1024 → EReal) (d : Fin 1024) : EReal :=
  (xr d - Ideal.div (∑ k : Fin 1024, xr k) rowLen)
      * Ideal.rsqrt (Ideal.div (∑ k : Fin 1024, (xr k - Ideal.div (∑ k : Fin 1024, xr k) rowLen)
          * (xr k - Ideal.div (∑ k : Fin 1024, xr k) rowLen)) rowLen + eps)
      * gr d + br d

/-- The specification's element is `rowLN` of the three rows (b, s, ·). -/
theorem at3_eq_rowLN (x g be : S3.Idx → EReal) (b : Fin 4) (s : Fin 2048) (d : Fin 1024) :
    at3 x g be b s d = rowLN (fun k => x (ix3 b s k)) (fun k => g (ix3 b s k)) (fun k => be (ix3 b s k)) d := rfl

/-- A block of 1024 rows, a row of per-row values, and the same as a column. -/
abbrev SB : Shape := ⟨2, ![1024, 1024]⟩
abbrev SR : Shape := ⟨1, ![1024]⟩
abbrev SC : Shape := ⟨2, ![1024, 1]⟩

/-- The keepdims column [1024] → [1024, 1] read at (p, z) is the vector at p. -/
theorem col_cast (v : SR.Idx → EReal) (h : SR.ShapeCasts SC) (p : Fin 1024) (z : Fin 1) :
    shapeCast SC v h (ix2 p z) = v (ix1 p) :=
  shapeCast_apply v h (ix2 p z) (ix1 p) (by
    rw [Shape.rowMajor_val_one, Shape.rowMajor_val_two]
    show p.val = p.val * 1 + z.val
    have := z.isLt; omega)

/-- The column broadcast along the lanes, [1024, 1] → [1024, 1024], read at (p, q) is the column at (p, 0). -/
theorem col_bcast (v : SC.Idx → EReal) (h : SC.Broadcasts SB) (p q : Fin 1024) :
    broadcastTo SB v h (ix2 p q) = v (ix2 p 0) :=
  broadcastTo_apply v h (ix2 p q) (ix2 p 0) (fun a => by
    match a with
    | ⟨0, _⟩ => rfl
    | ⟨1, _⟩ => rfl)

/-- A lane sum of a block at row p is the sum over the row. -/
theorem row_sum (x : FVec Ideal SB .f32) (h : SB.Reduces [1] SR) (p : Fin 1024) :
    multiReduction .add [1] SR x 0x00000000#32 h (.inl rfl) rfl (ix1 p) = ∑ k : Fin 1024, x (ix2 p k) :=
  (Ideal.multiReduction_add_single x 0x00000000#32 h (.inl rfl) rfl (ix1 p)).trans
    (Finset.sum_congr rfl fun k _ => congrArg x (funext fun a => Fin.ext (by
      match a with
      | ⟨0, _⟩ => rfl
      | ⟨1, _⟩ => rfl)))

/-- The per-row mean as the body computes it: the lane sum, as a column, over the row length. -/
def meanCol (h1 : SB.Reduces [1] SR) (h2 : SR.ShapeCasts SC) (x : FVec Ideal SB .f32) : FVec Ideal SC .f32 :=
  divf (shapeCast SC (multiReduction .add [1] SR x 0x00000000#32 h1 (.inl rfl) rfl) h2)
    (broadcast SC (Scalar.ofBits .f32 0x44800000#32))

theorem meanCol_apply (h1 : SB.Reduces [1] SR) (h2 : SR.ShapeCasts SC) (x : FVec Ideal SB .f32) (p : Fin 1024) (z : Fin 1) :
    meanCol h1 h2 x (ix2 p z) = Ideal.div (∑ k : Fin 1024, x (ix2 p k)) rowLen := by
  show Ideal.div (shapeCast SC (multiReduction .add [1] SR x 0x00000000#32 h1 (.inl rfl) rfl) h2 (ix2 p z)) rowLen = _
  rw [col_cast, row_sum]

/-- The body's arithmetic on a block: centre the rows, take the mean square, and fold the normalisation into the scale. -/
def bodyVec (h1 : SB.Reduces [1] SR) (h2 : SR.ShapeCasts SC) (h3 : SC.Broadcasts SB) (x0 x1 x2 : FVec Ideal SB .f32) :
    FVec Ideal SB .f32 :=
  addf (mulf (subf x0 (broadcastTo SB (meanCol h1 h2 x0) h3))
      (mulf (broadcastTo SB (rsqrt (addf (meanCol h1 h2 (mulf (subf x0 (broadcastTo SB (meanCol h1 h2 x0) h3))
          (subf x0 (broadcastTo SB (meanCol h1 h2 x0) h3)))) (broadcast SC (Scalar.ofBits .f32 0x36A7C5AC#32)))) h3) x1)) x2

/-- The centred block at (p, k). -/
theorem centred_apply (h1 : SB.Reduces [1] SR) (h2 : SR.ShapeCasts SC) (h3 : SC.Broadcasts SB) (x0 : FVec Ideal SB .f32)
    (p k : Fin 1024) :
    subf x0 (broadcastTo SB (meanCol h1 h2 x0) h3) (ix2 p k)
      = x0 (ix2 p k) - Ideal.div (∑ k : Fin 1024, x0 (ix2 p k)) rowLen := by
  show x0 (ix2 p k) - broadcastTo SB (meanCol h1 h2 x0) h3 (ix2 p k) = _
  rw [col_bcast, meanCol_apply]

/-- THE BODY AT (p, q) is the layer normalisation of the block's row p at q. -/
theorem bodyVec_apply (h1 : SB.Reduces [1] SR) (h2 : SR.ShapeCasts SC) (h3 : SC.Broadcasts SB) (x0 x1 x2 : FVec Ideal SB .f32)
    (p q : Fin 1024) :
    bodyVec h1 h2 h3 x0 x1 x2 (ix2 p q)
      = rowLN (fun k => x0 (ix2 p k)) (fun k => x1 (ix2 p k)) (fun k => x2 (ix2 p k)) q := by
  unfold bodyVec
  show subf x0 (broadcastTo SB (meanCol h1 h2 x0) h3) (ix2 p q)
      * (broadcastTo SB (rsqrt (addf (meanCol h1 h2 (mulf (subf x0 (broadcastTo SB (meanCol h1 h2 x0) h3))
          (subf x0 (broadcastTo SB (meanCol h1 h2 x0) h3)))) (broadcast SC (Scalar.ofBits .f32 0x36A7C5AC#32)))) h3 (ix2 p q)
        * x1 (ix2 p q)) + x2 (ix2 p q) = _
  rw [col_bcast]
  show subf x0 (broadcastTo SB (meanCol h1 h2 x0) h3) (ix2 p q)
      * (Ideal.rsqrt (meanCol h1 h2 (mulf (subf x0 (broadcastTo SB (meanCol h1 h2 x0) h3))
          (subf x0 (broadcastTo SB (meanCol h1 h2 x0) h3))) (ix2 p 0) + eps)
        * x1 (ix2 p q)) + x2 (ix2 p q) = _
  rw [meanCol_apply, centred_apply, ← mul_assoc]
  simp only [mulf_apply, centred_apply]
  rfl

end Cert.LayerNorm

end
-- ==== Proof.Payload.lean ====
/-
  The body's one store, as the block arithmetic of the row normalisation: the printed payload is the body's vector
  arithmetic once the three casts of a block to its own shape are dropped.
-/
import proofs.«145067_j37855841747141_2_alg».proof.Proof.Gen.KernelIdeal.Skeleton
import proofs.«145067_j37855841747141_2_alg».proof.Proof.BlockNorm

noncomputable section

namespace Cert.KernelIdeal.Payload

open Cert.KernelIdeal Cert.KernelIdeal.Gen Idealize.ShloMosaic Idealize.ShloMosaic.ValueIdx Cert.LayerNorm

/-- The stored value is the body's arithmetic on the three loaded blocks. -/
theorem pay_eq (x0 x1 x2 : Vec Ideal S1024x1024 .f32) :
    k0_pay1 (F := Ideal) x0 x1 x2
      = bodyVec reduces_S1024x1024_S1024 shapeCasts_S1024_S1024x1 broadcasts_S1024x1_S1024x1024 x0 x1 x2 := by
  unfold k0_pay1
  simp only [shapeCast_self]
  rfl

/-- At (p, q) it is the layer normalisation of row p of the blocks, at q. -/
theorem pay_apply (x0 x1 x2 : Vec Ideal S1024x1024 .f32) (p q : Fin 1024) :
    k0_pay1 (F := Ideal) x0 x1 x2 (ix2 p q)
      = rowLN (fun k => x0 (ix2 p k)) (fun k => x1 (ix2 p k)) (fun k => x2 (ix2 p k)) q :=
  (congrFun (pay_eq x0 x1 x2) (ix2 p q)).trans (bodyVec_apply _ _ _ x0 x1 x2 p q)

end Cert.KernelIdeal.Payload

end
-- ==== Proof.Reshape.lean ====
/-
  The same layer normalisation on the rows of the flattened [8192, 1024] arrays, and the flattening undone.

  Row r = b · 2048 + s of the flattened array is row (b, s) of the [4, 2048, 1024] array (both are row-major), so
  normalising the rows of the three flattened arguments and un-flattening the result is the specification's function.
-/
import Idealize.ShloMosaic.Lib.ValueIdx
import Idealize.ShloMosaic.Lib.Pipeline.Value
import proofs.«145067_j37855841747141_2_alg».proof.Proof.BlockNorm

noncomputable section

namespace Cert.LayerNorm

open Idealize.ShloMosaic Idealize.ShloMosaic.ValueIdx
open scoped BigOperators

/-- The flattened arrays' shape: 8192 = 4 · 2048 rows. -/
abbrev S2 : Shape := ⟨2, ![8192, 1024]⟩

/-- Row-wise layer normalisation of flattened arrays. -/
def G2 (x g be : S2.Idx → EReal) : S2.Idx → EReal := fun i =>
  rowLN (fun k => x (ix2 (i 0) k)) (fun k => g (ix2 (i 0) k)) (fun k => be (ix2 (i 0) k)) (i 1)

theorem G2_ix2 (x g be : S2.Idx → EReal) (r : Fin 8192) (d : Fin 1024) :
    G2 x g be (ix2 r d) = rowLN (fun k => x (ix2 r k)) (fun k => g (ix2 r k)) (fun k => be (ix2 r k)) d := rfl

/-- The flattened array at (b · 2048 + s, k) is the array at (b, s, k). -/
theorem flat_apply (x : S3.Idx → EReal) (h : S3.ShapeCasts S2) (b : Fin 4) (s : Fin 2048) (k : Fin 1024)
    (r : Fin 8192) (hr : r.val = b.val * 2048 + s.val) :
    shapeCast S2 x h (ix2 r k) = x (ix3 b s k) :=
  shapeCast_apply x h (ix2 r k) (ix3 b s k) (by
    rw [Shape.rowMajor_val_two, Shape.rowMajor_val_three]
    show (b.val * 2048 + s.val) * 1024 + k.val = r.val * 1024 + k.val
    rw [hr])

/-- Un-flattening: the [4, 2048, 1024] view at (b, s, d) is the flattened array at (b · 2048 + s, d). -/
theorem unflat_apply (y : S2.Idx → EReal) (h : S2.ShapeCasts S3) (b : Fin 4) (s : Fin 2048) (d : Fin 1024)
    (r : Fin 8192) (hr : r.val = b.val * 2048 + s.val) :
    shapeCast S3 y h (ix3 b s d) = y (ix2 r d) :=
  shapeCast_apply y h (ix3 b s d) (ix2 r d) (by
    rw [Shape.rowMajor_val_two, Shape.rowMajor_val_three]
    show r.val * 1024 + d.val = (b.val * 2048 + s.val) * 1024 + d.val
    rw [hr])

/-- FLATTEN, NORMALISE THE ROWS, UN-FLATTEN is the specification. -/
theorem unflat_G2_flat (x g be : S3.Idx → EReal) (h : S3.ShapeCasts S2) (h' : S2.ShapeCasts S3) :
    shapeCast S3 (G2 (shapeCast S2 x h) (shapeCast S2 g h) (shapeCast S2 be h)) h' = G x g be := by
  funext i
  obtain ⟨b, s, d, rfl⟩ : ∃ (b : Fin 4) (s : Fin 2048) (d : Fin 1024), i = ix3 b s d := ⟨i 0, i 1, i 2, eq_ix3 i⟩
  have hlt : b.val * 2048 + s.val < 8192 := by have := b.isLt; have := s.isLt; omega
  rw [unflat_apply _ h' b s d ⟨b.val * 2048 + s.val, hlt⟩ rfl, G2_ix2, G_ix3, at3_eq_rowLN]
  simp only [flat_apply _ h b s _ ⟨b.val * 2048 + s.val, hlt⟩ rfl]

end Cert.LayerNorm

end
-- ==== Proof.KernelValue.lean ====
/-
  What the kernel's program leaves in its result array, as the specification's function of the three arguments.

  The program flattens the three [4, 2048, 1024] arguments to [8192, 1024], runs the body on eight blocks of 1024
  whole rows (block t is rows t · 1024 … t · 1024 + 1023, every window at the same block), and un-flattens the
  output. A block of whole rows holds everything a row's mean and variance depend on, so what point t writes back
  is block t of the row-wise normalisation of the flattened arrays; the eight blocks tile the output array; and
  flatten – normalise rows – un-flatten is the specification.
-/
import proofs.«145067_j37855841747141_2_alg».proof.Proof.Gen.KernelIdeal.Frame
import Idealize.ShloMosaic.Lib.Pipeline.Value
import Idealize.ShloMosaic.Lib.StableHlo.Run
import proofs.«145067_j37855841747141_2_alg».proof.Proof.Payload
import proofs.«145067_j37855841747141_2_alg».proof.Proof.Reshape

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.StableHlo
open Idealize.ShloMosaic.ValueIdx Cert.LayerNorm

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the eight points: every window is at block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t is row t · 1024 + p of the flattened array. -/
def rowOf (t : Fin cfg0.N) (p : Fin 1024) : Fin 8192 :=
  ⟨t.val * 1024 + p.val, by have ht : t.val < grid0.N := t.isLt; rw [N_0] at ht; have := p.isLt; omega⟩

theorem emb0 (t : Fin cfg0.N) (p k : Fin 1024) : ((cfg0.win 0).blk t).view.emb (ix2 p k) = ix2 (rowOf t p) k := by
  obtain ⟨e0, e1, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 1024 + 1 * k.val = k.val; omega

theorem emb1 (t : Fin cfg0.N) (p k : Fin 1024) : ((cfg0.win 1).blk t).view.emb (ix2 p k) = ix2 (rowOf t p) k := by
  obtain ⟨-, -, e0, e1, -⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 1024 + 1 * k.val = k.val; omega

theorem emb2 (t : Fin cfg0.N) (p k : Fin 1024) : ((cfg0.win 2).blk t).view.emb (ix2 p k) = ix2 (rowOf t p) k := by
  obtain ⟨-, -, -, -, e0, e1, -⟩ := idx_facts t
  funext a; apply Fin.ext
  match a with
  | ⟨0, _⟩ => show win0_2.index t (0 : Fin 2) * 1024 + 1 * p.val = t.val * 1024 + p.val; omega
  | ⟨1, _⟩ => show win0_2.index t (1 : Fin 2) * 1024 + 1 * k.val = k.val; omega

theorem emb3 (t : Fin cfg0.N) (p k : Fin 1024) : ((cfg0.win 3).blk t).view.emb (ix2 p k) = ix2 (rowOf t p) k := by
  obtain ⟨-, -, -, -, -, -, e0, e1⟩ := idx_facts t
  funext a; apply Fin.ext
  match a with
  | ⟨0, _⟩ => show win0_3.index t (0 : Fin 2) * 1024 + 1 * p.val = t.val * 1024 + p.val; omega
  | ⟨1, _⟩ => show win0_3.index t (1 : Fin 2) * 1024 + 1 * k.val = k.val; omega

/-- Each input block's row p is row t · 1024 + p of its flattened array as the region finds it. -/
theorem iblk0_row (c : Dev nD) (t : Fin cfg0.N) (p k : Fin 1024) :
    iblk m c 0 t (ix2 p k) = V m c main_v0 (ix2 (rowOf t p) k) := by
  show V m c main_v0 (((cfg0.win 0).blk t).view.emb (ix2 p k)) = _
  exact congrArg (V m c main_v0) (emb0 t p k)
theorem iblk1_row (c : Dev nD) (t : Fin cfg0.N) (p k : Fin 1024) :
    iblk m c 1 t (ix2 p k) = V m c main_v1 (ix2 (rowOf t p) k) := by
  show V m c main_v1 (((cfg0.win 1).blk t).view.emb (ix2 p k)) = _
  exact congrArg (V m c main_v1) (emb1 t p k)
theorem iblk2_row (c : Dev nD) (t : Fin cfg0.N) (p k : Fin 1024) :
    iblk m c 2 t (ix2 p k) = V m c main_v2 (ix2 (rowOf t p) k) := by
  show V m c main_v2 (((cfg0.win 2).blk t).view.emb (ix2 p k)) = _
  exact congrArg (V m c main_v2) (emb2 t p k)

/-- WHAT POINT t WRITES BACK is block t of the row-wise normalisation of the flattened arrays. -/
theorem flushed_eq (c : Dev nD) (t : Fin cfg0.N) :
    (dats m 0 c).flushed 3 t
      = ((cfg0.win 3).blk t).view.read (Elt Ideal) (G2 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1024x1024) hz]
  funext y
  obtain ⟨p, q, rfl⟩ : ∃ (p q : Fin 1024), y = ix2 p q := ⟨y 0, y 1, eq_ix2 y⟩
  show k0_pay1 (F := Ideal) (iblk m c 0 t) (iblk m c 1 t) (iblk m c 2 t) (ix2 p q)
    = G2 (V m c main_v0) (V m c main_v1) (V m c main_v2) (((cfg0.win 3).blk t).view.emb (ix2 p q))
  rw [emb3]
  refine (Payload.pay_apply (iblk m c 0 t) (iblk m c 1 t) (iblk m c 2 t) p q).trans ?_
  rw [G2_ix2]
  simp only [iblk0_row, iblk1_row, iblk2_row]

/-- An index of the output array is in point t's block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- The eight blocks tile the output array: row r is in block r / 1024. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : grid0.N = 8 := N_0
  have hlt : (i 0).val / 1024 < grid0.N := by omega
  obtain ⟨-, -, -, -, -, -, e0, e1⟩ := idx_facts ⟨(i 0).val / 1024, hlt⟩
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    rw [e1]; omega

/-- THE OUTPUT ARRAY after the region: the row-wise normalisation of the flattened arrays. -/
theorem final (c : Dev nD) :
    (dats m 0 c).arrAt 3 cfg0.N = G2 (V m c main_v0) (V m c main_v1) (V m c main_v2) :=
  (dats m 0 c).arrAt_eq_of_cover 3 _ (fun t _ => flushed_eq m c t) cover

/-- The region finds each flattened array as the flattening of its argument. -/
theorem V_main_v0 (c : Dev nD) : (V m c main_v0 : S8192x1024.Idx → EReal)
    = shapeCast S8192x1024 (m ((c : Thread nD τ).loc main_arg0)) shapeCasts_S4x2048x1024_S8192x1024 := by
  show StableHlo.after hostOps0 (fun b => m (c, b)) (Proc.devRef .tc main_v0) = _
  after_results
  rfl
theorem V_main_v1 (c : Dev nD) : (V m c main_v1 : S8192x1024.Idx → EReal)
    = shapeCast S8192x1024 (m ((c : Thread nD τ).loc main_arg1)) shapeCasts_S4x2048x1024_S8192x1024 := by
  show StableHlo.after hostOps0 (fun b => m (c, b)) (Proc.devRef .tc main_v1) = _
  after_results
  rfl
theorem V_main_v2 (c : Dev nD) : (V m c main_v2 : S8192x1024.Idx → EReal)
    = shapeCast S8192x1024 (m ((c : Thread nD τ).loc main_arg2)) shapeCasts_S4x2048x1024_S8192x1024 := by
  show StableHlo.after hostOps0 (fun b => m (c, b)) (Proc.devRef .tc main_v2) = _
  after_results
  rfl

/-- The program's result: the un-flattening of the output array, by the one host line after the region. -/
theorem tail_v4 (c : Dev nD) :
    Pipeline.afterTail₀ cfgs (dats m) 0 (V0 m) [hostOps1] c main_v4
      = shapeCast S4x2048x1024 ((dats m 0 c).arrAt 3 cfg0.N) shapeCasts_S8192x1024_S4x2048x1024 := by
  unfold Pipeline.afterTail₀
  show StableHlo.after hostOps1 _ (Proc.devRef .tc main_v4) = _
  after_results
  exact congrArg (fun A : S8192x1024.Idx → EReal => shapeCast S4x2048x1024 A shapeCasts_S8192x1024_S4x2048x1024)
    (Pipeline.withArrays_arr (cfgs 0).spec launch0.win.arr_inj c (V0 m c) _ 3)

/-- THE RESULT is the specification's function of the three arguments as launched. -/
theorem result_eq (c : Dev nD) :
    Pipeline.afterTail₀ cfgs (dats m) 0 (V0 m) [hostOps1] c main_v4
      = G (m ((c : Thread nD τ).loc main_arg0)) (m ((c : Thread nD τ).loc main_arg1)) (m ((c : Thread nD τ).loc main_arg2)) := by
  rw [tail_v4, final, V_main_v0, V_main_v1, V_main_v2]
  exact unflat_G2_flat _ _ _ _ _

/-- THE RUN: every weakly fair execution of the kernel's program terminates with the result array at the
    specification's function of the arguments, and the arguments unchanged. -/
theorem run : θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.RefTerm.lean ====
/-
  The reference program's result as ONE term of its three arguments, in the stages the program computes it: the row
  mean (kept as a [4, 2048, 1] column), the deviations from it, the row count the variance divides by, the variance's
  quotient, the guarded variance, and the normalised, scaled and shifted result. For any float values.
-/
import proofs.«145067_j37855841747141_2_alg».proof.Proof.Gen.ReferenceIdeal

noncomputable section

namespace Cert.ReferenceIdeal.RefRun

open Cert.ReferenceIdeal Cert.ReferenceIdeal.Gen Idealize.ShloMosaic

variable {F : FTy → Type} [FloatOps F]

/-- The row sums of an array: the reduction over the last axis from the zero word. -/
def rowSum (y : FVec F S4x2048x1024 .f32) : FVec F S4x2048 .f32 :=
  Host.reduceAdd y (constant S_ .f32 0x00000000#32) reducesTo_S4x2048x1024_S4x2048_d2 h_S_

/-- A [4, 2048] array as a [4, 2048, 1] column. -/
def col (r : FVec F S4x2048 .f32) : FVec F S4x2048x1 .f32 :=
  broadcastInDim S4x2048x1 ![0, 1] bcast_S4x2048_S4x2048x1_0_1 r

/-- A scalar spread over a [4, 2048, 1] column. -/
def splat {α : Type} (c : S_.Idx → α) : S4x2048x1.Idx → α :=
  broadcastInDim S4x2048x1 ![] bcast_S_S4x2048x1 c

/-- A [4, 2048, 1] column spread along the rows of a [4, 2048, 1024] array. -/
def rows (c : FVec F S4x2048x1 .f32) : FVec F S4x2048x1024 .f32 :=
  broadcastInDim S4x2048x1024 ![0, 1, 2] bcast_S4x2048x1_S4x2048x1024_0_1_2 c

/-- The row means: the row sums over the word of 1024. -/
def mean (x : FVec F S4x2048x1024 .f32) : FVec F S4x2048x1 .f32 :=
  Host.divf (col (rowSum x)) (splat (constant S_ .f32 0x44800000#32))

/-- The deviations from the row means. -/
def dev (x : FVec F S4x2048x1024 .f32) : FVec F S4x2048x1024 .f32 :=
  subf x (rows (mean x))

/-- The variance's divisor: the word of 1024 less the converted integer 0. -/
def cnt : FVec F S_ .f32 :=
  subf (constant S_ .f32 0x44800000#32) (sitofp .f32 (constantI S_ 32 0#32))

/-- The sum of the squared deviations of each row over that divisor. -/
def varq (x : FVec F S4x2048x1024 .f32) : FVec F S4x2048x1 .f32 :=
  Host.divf (col (rowSum (mulf (dev x) (dev x)))) (splat cnt)

/-- The row variances: that quotient where the divisor is positive, the NaN word elsewhere. -/
def var (x : FVec F S4x2048x1024 .f32) : FVec F S4x2048x1 .f32 :=
  select (splat (cmpf .ogt (cnt (F := F)) (constant S_ .f32 0x00000000#32))) (varq x)
    (splat (id (constant S_ .f32 0x7FC00000#32)))

/-- The result: the deviations times the reciprocal square root of the variance plus the guard word, times the
    scale, plus the shift. -/
def out (x g be : FVec F S4x2048x1024 .f32) : FVec F S4x2048x1024 .f32 :=
  addf (mulf (mulf (dev x) (rows (Host.rsqrt (addf (var x) (splat (constant S_ .f32 0x36A7C5AC#32)))))) g) be

end Cert.ReferenceIdeal.RefRun

end
-- ==== Proof.RefRun.lean ====
/-
  The reference program's run. @main is a straight line of host operations once its two outlined functions (the
  variance, and the select it ends in) are unfolded at their calls over the calls' buffers; so every weakly fair
  execution terminates with each buffer at the fold of the operations over the launch contents, which at the result
  buffer is the staged term `out` of the three arguments, and at each argument buffer what was there.
-/
import proofs.«145067_j37855841747141_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty-two operations in order, the calls unfolded: seven of its own (the mean, and the integer 0 the
    variance is called with), the variance's twenty-one over the call's buffers, the select's three over the nested
    call's, then @main's last eleven. -/
abbrev ops : List (HloOp τ sig (Elt F)) :=
  [ nullary main_cst (constant S_ .f32 0x00000000#32),
    binary main_arg0 main_cst main_v0 (fun x v => Host.reduceAdd x v reducesTo_S4x2048x1024_S4x2048_d2 h_S_),
    unary main_v0 main_v1 (broadcastInDim S4x2048x1 ![0, 1] bcast_S4x2048_S4x2048x1_0_1),
    nullary main_cst_0 (constant S_ .f32 0x44800000#32),
    unary main_cst_0 main_v2 (broadcastInDim S4x2048x1 ![] bcast_S_S4x2048x1),
    binary main_v1 main_v2 main_v3 Host.divf,
    nullary main_c (constantI S_ 32 0#32),
    TRef.nullary main_call0.cst (constant S_ .f32 0x00000000#32),
    TRef.binary (.of main_arg0) main_call0.cst main_call0.v0 (fun x v => Host.reduceAdd x v reducesTo_S4x2048x1024_S4x2048_d2 h_S_),
    TRef.unary main_call0.v0 main_call0.v1 (broadcastInDim S4x2048x1 ![0, 1] bcast_S4x2048_S4x2048x1_0_1),
    TRef.nullary main_call0.cst_0 (constant S_ .f32 0x44800000#32),
    TRef.unary main_call0.cst_0 main_call0.v2 (broadcastInDim S4x2048x1 ![] bcast_S_S4x2048x1),
    TRef.binary main_call0.v1 main_call0.v2 main_call0.v3 Host.divf,
    TRef.unary main_call0.v3 main_call0.v4 (broadcastInDim S4x2048x1024 ![0, 1, 2] bcast_S4x2048x1_S4x2048x1024_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x2048x1024_S4x2048_d2 h_S_),
    TRef.unary main_call0.v9 main_call0.v10 (broadcastInDim S4x2048x1 ![0, 1] bcast_S4x2048_S4x2048x1_0_1),
    TRef.unary main_call0.v8 main_call0.v11 (broadcastInDim S4x2048x1 ![] bcast_S_S4x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x2048x1 ![] bcast_S_S4x2048x1),
    TRef.ternary main_call0.v13 main_call0.v12 main_call0.call0.v1 main_call0.call0.v2
      (fun p a b => select (broadcastInDim S4x2048x1 ![] bcast_S_S4x2048x1 p) a b),
    unary main_v3 main_v5 (broadcastInDim S4x2048x1024 ![0, 1, 2] bcast_S4x2048x1_S4x2048x1024_0_1_2),
    binary main_arg0 main_v5 main_v6 subf,
    nullary main_cst_1 (constant S_ .f32 0x36A7C5AC#32),
    unary main_cst_1 main_v7 (broadcastInDim S4x2048x1 ![] bcast_S_S4x2048x1),
    binary main_v4 main_v7 main_v8 addf,
    unary main_v8 main_v9 Host.rsqrt,
    unary main_v9 main_v10 (broadcastInDim S4x2048x1024 ![0, 1, 2] bcast_S4x2048x1_S4x2048x1024_0_1_2),
    binary main_v6 main_v10 main_v11 mulf,
    binary main_v11 main_arg1 main_v12 mulf,
    binary main_v12 main_arg2 main_v13 addf ]

-- forty-two binds re-associated
set_option maxRecDepth 1024 in
/-- @main is that straight line: the two functions' definitions unfolded at their calls and the records at their
    fields, both sides are one chain of host steps once sequencing is re-associated. -/
theorem main_eq (c : Dev nD) : main (F := F) c = seq ops := by
  simp only [main, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub ..⟩

/-- From any memory with zero counters: every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRead.lean ====
/-
  The fold of the reference's operations read at the result buffer and at the three argument buffers: the staged
  term `out` of the arguments' contents, and the arguments' contents themselves (no operation writes an argument).
-/
import proofs.«145067_j37855841747141_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd in
set_option maxRecDepth 8192 in
/-- At the result buffer the fold is `out` of the three arguments' contents: each operation's result at its own
    buffer is its function of its operands' contents, at any other buffer what was there. The row reductions stay
    folded throughout. -/
theorem out_eq (V : Valuation τ sig (Elt F)) :
    after ops V (main_v13 : DevRef τ sig)
      = out (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

end Cert.ReferenceIdeal.RefRun

end
-- ==== Proof.RefLit.lean ====
/-
  The two literal facts the reference's variance guard needs at the extended reals: the binary32 word 0x44800000 is
  1024 (sign 0, exponent 137, fraction 0: 2²³ · 2^(137 − 127 − 23) = 2¹⁰), and so it compares greater than the zero word.
-/
import Idealize.ShloMosaic.PureOps.Ideal
import Idealize.ShloMosaic.PureOps.Ideal.Laws

namespace Cert.ReferenceIdeal.RefValue

open Idealize.ShloMosaic

/-- The word 0x44800000 denotes 1024. -/
theorem ofBits_1024 : Ideal.ofBits .f32 0x44800000#32 = ((1024 : ℝ) : EReal) := by
  simp [Ideal.ofBits, Ideal.ieee, -EReal.coe_mul]
  norm_num

/-- 1024 is greater than 0: the comparison's bit is set. -/
theorem cmp_1024_zero :
    Ideal.cmp .ogt (Ideal.ofBits .f32 0x44800000#32) (Ideal.ofBits .f32 0x00000000#32) = 1#1 := by
  rw [ofBits_1024, Ideal.ofBits_zero_f32]
  unfold Ideal.cmp
  simp

end Cert.ReferenceIdeal.RefValue
-- ==== Proof.RefStages.lean ====
/-
  The reference's stages read at an index, at the extended reals. A row reduction over the last axis is the sum over
  that axis's 1024 coordinates (its initial value the zero word, which is 0); each of the three broadcasts reads its
  operand at the coordinates its dimension map names; the host's division and reciprocal square root are the extended
  reals'; the variance's divisor, the word of 1024 less the converted integer 0, is that word, and it compares greater
  than the zero word, so the guard's select takes the quotient. Stage by stage these are the specification's row mean,
  row variance and result element.
-/
import proofs.«145067_j37855841747141_2_alg».proof.Proof.RefTerm
import proofs.«145067_j37855841747141_2_alg».proof.Proof.RefLit
import proofs.«145067_j37855841747141_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Cert.LayerNorm
open Idealize.ShloMosaic Idealize.ShloMosaic.ValueIdx
open scoped BigOperators

/-! ## The layout operations at an index -/

/-- A row sum at row (b, s): the sum of the row's 1024 elements. -/
theorem rowSum_apply (y : FVec Ideal S4x2048x1024 .f32) (b : Fin 4) (s : Fin 2048) :
    rowSum (F := Ideal) y (ix2 b s) = ∑ k : Fin 1024, y (ix3 b s k) := by
  have hR : S4x2048x1024.Reduces [2] S4x2048 := by decide
  show Ideal.hostReduceAdd reducesTo_S4x2048x1024_S4x2048_d2 y (Ideal.ofBits .f32 0x00000000#32) (ix2 b s) = _
  rw [Ideal.hostReduceAdd_single _ hR, Ideal.ofBits_zero_f32, zero_add]
  refine Finset.sum_congr rfl fun k _ => congrArg y ?_
  funext c
  match c with
  | ⟨0, _⟩ => exact Fin.ext rfl
  | ⟨1, _⟩ => exact Fin.ext rfl
  | ⟨2, _⟩ => exact Fin.ext rfl

/-- The column of a [4, 2048] array at (b, s, ·) is the array at (b, s). -/
theorem col_apply (r : FVec Ideal S4x2048 .f32) (b : Fin 4) (s : Fin 2048) (z : Fin 1) :
    col (F := Ideal) r (ix3 b s z) = r (ix2 b s) := by
  unfold col
  refine broadcastInDim_apply _ _ r _ (ix2 b s) fun a => ?_
  match a with
  | ⟨0, _⟩ => rfl
  | ⟨1, _⟩ => rfl

/-- A spread scalar reads the scalar everywhere. -/
theorem splat_apply {α : Type} (c : S_.Idx → α) (j : S4x2048x1.Idx) : splat c j = c ix0 := by
  unfold splat
  exact broadcastInDim_apply _ _ c j ix0 fun a => a.elim0

/-- A column spread along the rows reads the column at the row. -/
theorem rows_apply (c : FVec Ideal S4x2048x1 .f32) (b : Fin 4) (s : Fin 2048) (d : Fin 1024) :
    rows (F := Ideal) c (ix3 b s d) = c (ix3 b s (0 : Fin 1)) := by
  unfold rows
  refine broadcastInDim_apply _ _ c _ (ix3 b s (0 : Fin 1)) fun a => ?_
  match a with
  | ⟨0, _⟩ => rfl
  | ⟨1, _⟩ => rfl
  | ⟨2, _⟩ => rfl

/-! ## The stages -/

/-- The mean stage at row (b, s) is the specification's row mean. -/
theorem mean_apply (x : FVec Ideal S4x2048x1024 .f32) (b : Fin 4) (s : Fin 2048) :
    mean (F := Ideal) x (ix3 b s (0 : Fin 1)) = rowMean x b s := by
  show Ideal.div (col (F := Ideal) (rowSum (F := Ideal) x) (ix3 b s (0 : Fin 1)))
      (splat (constant (F := Ideal) S_ .f32 0x44800000#32) (ix3 b s (0 : Fin 1))) = _
  rw [col_apply, rowSum_apply, splat_apply]
  rfl

/-- The deviation at (b, s, d). -/
theorem dev_apply (x : FVec Ideal S4x2048x1024 .f32) (b : Fin 4) (s : Fin 2048) (d : Fin 1024) :
    dev (F := Ideal) x (ix3 b s d) = x (ix3 b s d) - rowMean x b s := by
  show x (ix3 b s d) - rows (F := Ideal) (mean (F := Ideal) x) (ix3 b s d) = _
  rw [rows_apply, mean_apply]

/-- The variance's divisor is the word of 1024: the converted integer 0 is 0. -/
theorem cnt_apply : cnt (F := Ideal) ix0 = rowLen := by
  show Ideal.ofBits .f32 0x44800000#32 - (((0#32 : BitVec 32).toInt : ℝ) : EReal) = _
  simp [rowLen]

/-- The guard's comparison holds. -/
theorem guard_apply :
    cmpf .ogt (cnt (F := Ideal)) (constant (F := Ideal) S_ .f32 0x00000000#32) ix0 = 1#1 := by
  show Ideal.cmp .ogt (cnt (F := Ideal) ix0) (Ideal.ofBits .f32 0x00000000#32) = 1#1
  rw [cnt_apply]
  exact cmp_1024_zero

/-- The variance's quotient at row (b, s) is the specification's row variance. -/
theorem varq_apply (x : FVec Ideal S4x2048x1024 .f32) (b : Fin 4) (s : Fin 2048) :
    varq (F := Ideal) x (ix3 b s (0 : Fin 1)) = rowVar x b s := by
  show Ideal.div (col (F := Ideal) (rowSum (F := Ideal) (mulf (dev (F := Ideal) x) (dev (F := Ideal) x))) (ix3 b s (0 : Fin 1)))
      (splat (cnt (F := Ideal)) (ix3 b s (0 : Fin 1))) = _
  rw [col_apply, rowSum_apply, splat_apply, cnt_apply]
  unfold rowVar
  congr 1
  exact Finset.sum_congr rfl fun k _ => by rw [mulf_apply, dev_apply]

/-- The guarded variance is that quotient. -/
theorem var_apply (x : FVec Ideal S4x2048x1024 .f32) (b : Fin 4) (s : Fin 2048) :
    var (F := Ideal) x (ix3 b s (0 : Fin 1)) = rowVar x b s := by
  unfold var
  rw [select_apply, splat_apply, guard_apply, select_one, varq_apply]

/-- The result element at (b, s, d) is the specification's. -/
theorem out_apply (x g be : FVec Ideal S4x2048x1024 .f32) (b : Fin 4) (s : Fin 2048) (d : Fin 1024) :
    out (F := Ideal) x g be (ix3 b s d) = at3 x g be b s d := by
  show dev (F := Ideal) x (ix3 b s d)
        * rows (F := Ideal) (Host.rsqrt (F := Ideal) (addf (var (F := Ideal) x) (splat (constant (F := Ideal) S_ .f32 0x36A7C5AC#32)))) (ix3 b s d)
        * g (ix3 b s d) + be (ix3 b s d) = _
  rw [dev_apply, rows_apply]
  show _ * Ideal.rsqrt (var (F := Ideal) x (ix3 b s (0 : Fin 1)) + splat (constant (F := Ideal) S_ .f32 0x36A7C5AC#32) (ix3 b s (0 : Fin 1))) * _ + _ = _
  rw [var_apply, splat_apply]
  rfl

/-- THE REFERENCE'S TERM IS THE SPECIFICATION. -/
theorem out_eq_G (x g be : FVec Ideal S4x2048x1024 .f32) : out (F := Ideal) x g be = G x g be := by
  funext i
  obtain ⟨b, s, d, rfl⟩ : ∃ b s d, i = ix3 b s d := ⟨i 0, i 1, i 2, eq_ix3 i⟩
  rw [out_apply, G_ix3]

end Cert.ReferenceIdeal.RefValue

end
-- ==== Proof.RefValue.lean ====
/-
  The reference's run, stated against the specification: from any memory with zero counters, every weakly fair
  execution of @main terminates with the result buffer at the layer normalisation `Cert.LayerNorm.G` of the three
  argument buffers' launch contents, and the three argument buffers unchanged. The run gives each buffer at the
  operations' fold; the fold read at the result buffer is the staged term; stage by stage that term is the
  specification.
-/
import proofs.«145067_j37855841747141_2_alg».proof.Proof.RefRead
import proofs.«145067_j37855841747141_2_alg».proof.Proof.RefStages

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

/-- On the one device, at the extended reals, from any memory with zero counters: every weakly fair execution of the
    reference's @main terminates with its result the specification's array of the three arguments' launch contents
    and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v13) = Cert.LayerNorm.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v13).trans ((out_eq _).trans (out_eq_G _ _ _)),
        (h c main_arg0).trans (arg0_eq _),
        (h c main_arg1).trans (arg1_eq _),
        (h c main_arg2).trans (arg2_eq _)⟩)
    (run_main m ρ)

end Cert.ReferenceIdeal.RefValue

end
-- ==== Proof.lean ====
/-
  The certificate's five claims for a layer normalisation over the last axis of a [4, 2048, 1024] array with a
  per-element scale and shift, the kernel against its jnp reference.

  Both idealized programs compute, for each row, mean = (Σ x) / 1024, var = (Σ (x − mean)²) / 1024 and
  (x − mean) · rsqrt(var + ε) · γ + β over the extended reals (`Cert.LayerNorm.G`, Proof/Spec.lean), with the same two
  binary32 words for 1024 and ε. The kernel flattens the arrays to [8192, 1024], works on eight blocks of 1024 whole
  rows and folds the normalisation into the scale, c · (rsqrt(var + ε) · γ) + β — equal by associativity of the product
  (Proof/BlockNorm.lean, Proof/Payload.lean, Proof/Reshape.lean, Proof/KernelValue.lean). The reference takes the
  variance through jnp.var, whose divisor 1024 − 0 is the same word and whose guard "divisor > 0" holds
  (Proof/RefTerm.lean … Proof/RefValue.lean). No law used needs finiteness, so the precondition is never opened.
  The three frames are the programs' runs with the result dropped; the ideal pass rewrote nothing, so `preserves` is
  trivial.
-/
import proofs.«145067_j37855841747141_2_alg».proof.Defs
import proofs.«145067_j37855841747141_2_alg».proof.Proof.Gen.Kernel
import proofs.«145067_j37855841747141_2_alg».proof.Proof.Gen.Kernel.Skeleton
import proofs.«145067_j37855841747141_2_alg».proof.Proof.Gen.Kernel.Launch
import proofs.«145067_j37855841747141_2_alg».proof.Proof.Gen.Kernel.Points
import proofs.«145067_j37855841747141_2_alg».proof.Proof.Gen.Kernel.Frame
import proofs.«145067_j37855841747141_2_alg».proof.Proof.Gen.KernelIdeal
import proofs.«145067_j37855841747141_2_alg».proof.Proof.Gen.KernelIdeal.Skeleton
import proofs.«145067_j37855841747141_2_alg».proof.Proof.Gen.KernelIdeal.Launch
import proofs.«145067_j37855841747141_2_alg».proof.Proof.Gen.KernelIdeal.Points
import proofs.«145067_j37855841747141_2_alg».proof.Proof.Gen.KernelIdeal.Frame
import proofs.«145067_j37855841747141_2_alg».proof.Proof.Gen.ReferenceIdeal
import proofs.«145067_j37855841747141_2_alg».proof.Proof.Gen.Pre_finite_inputs
import proofs.«145067_j37855841747141_2_alg».proof.Proof.KernelValue
import proofs.«145067_j37855841747141_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both idealized programs end with the result at the layer normalisation of the arguments, which agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
